-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x1x2048x2048 : Shape := ⟨4, ![4, 1, 2048, 2048]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_

variable [Facts]

def fn_part1 {F : FTy → Type} [FloatOps F] (main_v13 : IVec S_ 1) (main_v16 : IVec S4x1x2048x2048 1) : IVec S_ 1 :=
  let main_c_5 : IVec S_ 1 := constantI S_ 1 1#1
  let main_v17 : IVec S_ 1 := (fun x v => Host.reduce IntOp.andi x v reducesTo_S4x1x2048x2048_S_d0_1_2_3 h_S_) main_v16 main_c_5
  let main_v18 : IVec S_ 1 := andi main_v13 main_v17
  main_v18

def fn {F : FTy → Type} [FloatOps F] (main_arg0 : FVec F S4x2048x512 .f32) (main_arg1 : FVec F S4x2048x512 .f32) (main_arg2 : FVec F S4x2048x512 .f32) (main_arg3 : FVec F S4x1x2048x2048 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S4x1x2048x2048 .f32 := Host.absf main_arg3
  let main_cst_4 : FVec F S_ .f32 := constant S_ .f32 0x7F800000#32
  let main_v15 : FVec F S4x1x2048x2048 .f32 := broadcastInDim S4x1x2048x2048 ![] bcast_S_S4x1x2048x2048 main_cst_4
  let main_v16 : IVec S4x1x2048x2048 1 := cmpf .olt main_v14 main_v15
  fn_part1 (F := F) main_v13 main_v16
-- ==== Kernel.lean ====
abbrev S4x2048x512 : Shape := ⟨3, ![4, 2048, 512]⟩
abbrev S4x1x2048x2048 : Shape := ⟨4, ![4, 1, 2048, 2048]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S1x1x1024x64 : Shape := ⟨4, ![1, 1, 1024, 64]⟩
abbrev S1x1x2048x64 : Shape := ⟨4, ![1, 1, 2048, 64]⟩
abbrev S1x1x1024x2048 : Shape := ⟨4, ![1, 1, 1024, 2048]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x1x2048x2048, .f32⟩
  | .hbm, ⟨4, _⟩ => ⟨S4x2048x8x64, .f32⟩
  | .hbm, ⟨5, _⟩ => ⟨S4x8x2048x64, .f32⟩
  | .hbm, ⟨6, _⟩ => ⟨S4x2048x8x64, .f32⟩
  | .hbm, ⟨7, _⟩ => ⟨S4x8x2048x64, .f32⟩
  | .hbm, ⟨8, _⟩ => ⟨S4x2048x8x64, .f32⟩
  | .hbm, ⟨9, _⟩ => ⟨S4x8x2048x64, .f32⟩
  | .hbm, ⟨10, _⟩ => ⟨S4x8x2048x64, .f32⟩
  | .hbm, ⟨11, _⟩ => ⟨S4x8x2048x2048, .f32⟩
  | .hbm, ⟨12, _⟩ => ⟨S4x2048x8x64, .f32⟩
  | .hbm, ⟨13, _⟩ => ⟨S4x2048x512, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x2048, .f32⟩
  | .local _ .vmem, ⟨7, _⟩ => ⟨S1x1x1024x2048, .f32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x2048, .f32⟩
  | .local _ .vmem, ⟨11, _⟩ => ⟨S1x1x1024x2048, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S4x2048x512_S4x2048x8x64 : S4x2048x512.ShapeCasts S4x2048x8x64
  transposes_S4x2048x8x64_S4x8x2048x64_0_2_1_3 : S4x2048x8x64.Transposes [0, 2, 1, 3] S4x8x2048x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1x1024x2048 : S1024x2048.ShapeCasts S1x1x1024x2048
  shapeCasts_S1024x64_S1x1x1024x64 : S1024x64.ShapeCasts S1x1x1024x64
  transposes_S4x8x2048x64_S4x2048x8x64_0_2_1_3 : S4x8x2048x64.Transposes [0, 2, 1, 3] S4x2048x8x64
  shapeCasts_S4x2048x8x64_S4x2048x512 : S4x2048x8x64.ShapeCasts S4x2048x512
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x8x2048x64.size a
  hwx0_0 : ∀ i : grid0.Coords, EltTy.bits .f32 = 32 ∨ (Rect.block (s := S4x8x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x8x2048x64.size a
  hwx0_1 : ∀ i : grid0.Coords, EltTy.bits .f32 = 32 ∨ (Rect.block (s := S4x8x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x8x2048x64.size a
  hwx0_2 : ∀ i : grid0.Coords, EltTy.bits .f32 = 32 ∨ (Rect.block (s := S4x8x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x2048.size a ≤ S4x1x2048x2048.size a
  hwx0_3 : ∀ i : grid0.Coords, EltTy.bits .f32 = 32 ∨ (Rect.block (s := S4x1x2048x2048) S1x1x1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x8x2048x64.size a
  hwx0_4 : ∀ i : grid0.Coords, EltTy.bits .f32 = 32 ∨ (Rect.block (s := S4x8x2048x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S4x8x2048x2048.size a
  hwx0_5 : ∀ i : grid0.Coords, EltTy.bits .f32 = 32 ∨ (Rect.block (s := S4x8x2048x2048) S1x1x1024x2048.size (cc0_transform_5 i) (hinb0_5 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v1) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S4x1x2048x2048 : Shape := ⟨4, ![4, 1, 2048, 2048]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x1x2048x2048, .f32⟩
  | .hbm, ⟨4, _⟩ => ⟨S4x2048x8x64, .f32⟩
  | .hbm, ⟨5, _⟩ => ⟨S4x8x2048x64, .f32⟩
  | .hbm, ⟨6, _⟩ => ⟨S4x2048x8x64, .f32⟩
  | .hbm, ⟨7, _⟩ => ⟨S4x8x2048x64, .f32⟩
  | .hbm, ⟨8, _⟩ => ⟨S4x2048x8x64, .f32⟩
  | .hbm, ⟨9, _⟩ => ⟨S4x8x2048x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S4x8x2048x2048, .f32⟩
  | .hbm, ⟨17, _⟩ => ⟨S_, .f32⟩
  | .hbm, ⟨18, _⟩ => ⟨S4x1x2048x2048, .f32⟩
  | .hbm, ⟨19, _⟩ => ⟨S4x1x2048x2048, .f32⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S_, .f32⟩
  | .hbm, ⟨25, _⟩ => ⟨S4x8x2048, .f32⟩
  | .hbm, ⟨26, _⟩ => ⟨S4x8x2048, .f32⟩
  | .hbm, ⟨27, _⟩ => ⟨S4x8x2048x1, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x2048x64, .f32⟩
  | .hbm, ⟨37, _⟩ => ⟨S4x2048x8x64, .f32⟩
  | .hbm, ⟨38, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S4x2048x512_S4x2048x8x64 : S4x2048x512.ShapeCasts S4x2048x8x64
  transposes_S4x2048x8x64_S4x8x2048x64_0_2_1_3 : S4x2048x8x64.Transposes [0, 2, 1, 3] S4x8x2048x64
  bcast_S_S4x8x2048x2048 : S_.BroadcastsInDim S4x8x2048x2048 (![] : Fin 0 → Fin S4x8x2048x2048.rank)
  bcast_S_S4x1x2048x2048 : S_.BroadcastsInDim S4x1x2048x2048 (![] : Fin 0 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.RowSoftmax.lean ====
/-
  Scaled dot-product attention with an additive mask, as a function of the query, key and value arrays by heads and
  of the mask, entry by entry on the extended reals.

  For a batch entry b, a head h and a query position i the logits of the row are
      l k = (Σ_d q[b,h,i,d] · k[b,h,k,d]) · (1/8) + mask[b,0,i,k] · w          (w the mask's weight, a fixed float),
  the attention weights are the softmax of the row taken against its maximum M = max_k l k,
      attn[b,h,i,k] = exp (l k − M) / Σ_k' exp (l k' − M),
  and the output is out[b,h,i,d] = Σ_k attn[b,h,i,k] · v[b,h,k,d].

  One algebraic law is proved here: a nonnegative real factor can be moved from inside a sum of products to the
  outside, (Σ_d (a d · c) · b d) = (Σ_d a d · b d) · c, for ANY extended reals a d, b d: multiplication by a finite
  nonnegative number distributes over every sum of extended reals, so no entry has to be finite.
-/
import Idealize.ShloMosaic.PureOps.Ideal
import Idealize.ShloMosaic.Lib.ValueIdx

noncomputable section

open scoped BigOperators

namespace Cert.Attn

open Idealize.ShloMosaic Idealize.ShloMosaic.ValueIdx

/-- The scale 1/√64 = 1/8. -/
def eighth : EReal := ((1 / 8 : ℝ) : EReal)

/-- The weight the mask is multiplied by (the float −1e9, kept as its pattern: both programs spell the same one). -/
def maskWeight : EReal := Ideal.ofBits .f32 0xCE6E6B28#32

/-- The float pattern of 0.125 denotes 1/8. -/
theorem ofBits_eighth : Ideal.ofBits .f32 0x3E000000#32 = eighth := by
  unfold eighth
  simp [Ideal.ofBits, Ideal.ieee, -EReal.coe_mul]; norm_num

/-- The float pattern of 1.0 denotes 1. -/
theorem ofBits_one : Ideal.ofBits .f32 0x3F800000#32 = ((1 : ℝ) : EReal) := by
  simp [Ideal.ofBits, Ideal.ieee, -EReal.coe_mul]; norm_num

/-- The float pattern of 64.0 denotes 64. -/
theorem ofBits_sixtyfour : Ideal.ofBits .f32 0x42800000#32 = ((64 : ℝ) : EReal) := by
  simp [Ideal.ofBits, Ideal.ieee, -EReal.coe_mul]; norm_num

/-- 1 / √64 computed on the extended reals is 1/8: the square root of 64 is exactly 8. -/
theorem one_div_sqrt_sixtyfour :
    Ideal.div (Ideal.ofBits .f32 0x3F800000#32) (Ideal.sqrt (Ideal.ofBits .f32 0x42800000#32)) = eighth := by
  rw [ofBits_one, ofBits_sixtyfour]
  have h8 : Real.sqrt 64 = 8 := by
    rw [show (64 : ℝ) = 8 ^ 2 by norm_num]; exact Real.sqrt_sq (by norm_num)
  have hs : Ideal.sqrt ((64 : ℝ) : EReal) = ((8 : ℝ) : EReal) := by
    show (if (64 : ℝ) < 0 then (⊥ : EReal) else ((Real.sqrt 64 : ℝ) : EReal)) = _
    rw [if_neg (by norm_num), h8]
  rw [hs, Ideal.div_coe (by norm_num)]
  unfold eighth
  rw [← EReal.coe_mul]; norm_num

/-- The pattern of −∞ is the least extended real: a maximum with it changes nothing. -/
theorem max_negInf (y : EReal) : max (Ideal.ofBits .f32 0xFF800000#32) y = y := by
  simp [Ideal.ofBits, Ideal.ieee]

/-- The float pattern of +0.0 denotes 0. -/
theorem ofBits_zero : Ideal.ofBits .f32 0x00000000#32 = 0 := by
  simp [Ideal.ofBits, Ideal.ieee]

/-- The maximum of a row, taken from −∞. -/
def rowMax {n : ℕ} (l : Fin n → EReal) : EReal :=
  (Finset.univ : Finset (Fin n)).fold max (Ideal.ofBits .f32 0xFF800000#32) l

/-- The softmax of a row against its maximum, at entry k. -/
def softmaxRow {n : ℕ} (l : Fin n → EReal) (k : Fin n) : EReal :=
  Ideal.div (Ideal.exp (l k - rowMax l)) (∑ k' : Fin n, Ideal.exp (l k' - rowMax l))

/-- The logits of one query row: the scaled products with every key, plus the weighted mask. -/
def logitRow {D n : ℕ} (q : Fin D → EReal) (key : Fin n → Fin D → EReal) (mk : Fin n → EReal) : Fin n → EReal :=
  fun k' => (∑ d : Fin D, q d * key k' d) * eighth + mk k' * maskWeight

/-- A nonnegative real factor moves out of a sum of products, whatever the extended reals summed. -/
theorem sum_mul_coe_mul {ι : Type} (s : Finset ι) (a b : ι → EReal) (c : ℝ) (hc : 0 ≤ c) :
    ∑ d ∈ s, (a d * (c : EReal)) * b d = (∑ d ∈ s, a d * b d) * (c : EReal) := by
  classical
  induction s using Finset.induction_on with
  | empty => simp
  | insert x s hx ih =>
    rw [Finset.sum_insert hx, Finset.sum_insert hx, ih,
      EReal.right_distrib_of_nonneg_of_ne_top (EReal.coe_nonneg.2 hc) (EReal.coe_ne_top c), mul_right_comm]

/-- The same with the factor 1/8 and the sum over a whole index type. -/
theorem sum_mul_eighth {D : ℕ} (a b : Fin D → EReal) :
    ∑ d : Fin D, (a d * eighth) * b d = (∑ d : Fin D, a d * b d) * eighth :=
  sum_mul_coe_mul Finset.univ a b (1 / 8) (by norm_num)

/-! ## The two results, entry by entry -/

/-- Queries, keys and values by heads: [batch 4, head 8, position 2048, depth 64]. -/
abbrev SHeads : Shape := ⟨4, ![4, 8, 2048, 64]⟩
/-- The mask: [batch 4, 1, query position 2048, key position 2048]. -/
abbrev SMask : Shape := ⟨4, ![4, 1, 2048, 2048]⟩
/-- The attention weights: [batch 4, head 8, query position 2048, key position 2048]. -/
abbrev SWeights : Shape := ⟨4, ![4, 8, 2048, 2048]⟩

/-- The attention weight of key k for query i of head h of batch entry b. -/
def attnAt (qh kh : SHeads.Idx → EReal) (mk : SMask.Idx → EReal) (b : Fin 4) (h : Fin 8) (i : Fin 2048) (k : Fin 2048) : EReal :=
  softmaxRow (logitRow (fun d : Fin 64 => qh (ix4 b h i d)) (fun (k' : Fin 2048) (d : Fin 64) => kh (ix4 b h k' d))
    (fun k' : Fin 2048 => mk (ix4 b (0 : Fin 1) i k'))) k

/-- All the attention weights. -/
def attnSpec (qh kh : SHeads.Idx → EReal) (mk : SMask.Idx → EReal) : SWeights.Idx → EReal :=
  fun j => attnAt qh kh mk (j 0) (j 1) (j 2) (j 3)

/-- The output at depth d for query i of head h of batch entry b: the values averaged with the attention weights. -/
def outAt (qh kh vh : SHeads.Idx → EReal) (mk : SMask.Idx → EReal) (b : Fin 4) (h : Fin 8) (i : Fin 2048) (d : Fin 64) : EReal :=
  ∑ k : Fin 2048, attnAt qh kh mk b h i k * vh (ix4 b h k d)

/-- The whole output by heads. -/
def outSpec (qh kh vh : SHeads.Idx → EReal) (mk : SMask.Idx → EReal) : SHeads.Idx → EReal :=
  fun j => outAt qh kh vh mk (j 0) (j 1) (j 2) (j 3)

end Cert.Attn

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.KernelRow.lean ====
/-
  What the kernel's body computes for one block of 1024 queries of one head, entry by entry on the extended reals.

  The body loads a block q of queries [1, 1, 1024, 64], all the keys k [1, 1, 2048, 64] and values v [1, 1, 2048, 64]
  of the head, and the block of the mask [1, 1, 1024, 2048].  Its logits are (q · 1/8) kᵀ + mask · w: the scale sits
  INSIDE the product, on the queries.  Entry (r, k) is Σ_d (q[r,d] · 1/8) · k[k,d] + mask[r,k] · w, which is the row's
  logit (Σ_d q[r,d] · k[k,d]) · 1/8 + mask[r,k] · w: the nonnegative factor 1/8 moves out of the sum.  The row maximum,
  the exponentials, the row sum and the quotient are then the softmax of that row, and the second product averages the
  values with those weights.
-/
import proofs.«173999_j80659485819035_2_alg».proof.Proof.Gen.KernelIdeal.Skeleton
import proofs.«173999_j80659485819035_2_alg».proof.Proof.RowSoftmax
import proofs.«173999_j80659485819035_2_alg».proof.Proof.LibKeepdims
import proofs.«173999_j80659485819035_2_alg».proof.Proof.LibUnitAxes
import Idealize.ShloMosaic.Lib.Pipeline.Value
import Idealize.ShloMosaic.Lib.ValueLayout
import Idealize.ShloMosaic.PureOps.Ideal.Laws

noncomputable section

open scoped BigOperators

namespace Cert.Attn

open Idealize.ShloMosaic Idealize.ShloMosaic.ValueIdx

/-- The softmax of every row of a matrix of logits, as the vector operations compute it — the row maxima kept as a
    column and spread back, subtracted, exponentiated, the row sums kept as a column and spread back, the quotient —
    reads, at `(i, j)`, the softmax of row `i` at `j`. -/
theorem softmax_rows_apply {a b : ℕ} (L : FVec Ideal ⟨2, ![a, b]⟩ .f32)
    (h : (⟨2, ![a, b]⟩ : Shape).Reduces [1] ⟨1, ![a]⟩) (hφ : FKind.Formats .f32)
    (hM : (0xFF800000#32 : BitVec 32) = FKind.maximumf.neutral .f32 hφ) (hA : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) (i : Fin a) (j : Fin b) :
    divf (exp (subf L (broadcastTo ⟨2, ![a, b]⟩ (shapeCast ⟨2, ![a, 1]⟩ (multiReduction .maximumf [1] ⟨1, ![a]⟩ L 0xFF800000#32 h hφ hM) hc) hb)))
      (broadcastTo ⟨2, ![a, b]⟩ (shapeCast ⟨2, ![a, 1]⟩ (multiReduction .add [1] ⟨1, ![a]⟩
        (exp (subf L (broadcastTo ⟨2, ![a, b]⟩ (shapeCast ⟨2, ![a, 1]⟩ (multiReduction .maximumf [1] ⟨1, ![a]⟩ L 0xFF800000#32 h hφ hM) hc) hb)))
        0x00000000#32 h hφ hA) hc) hb) (ix2 i j)
      = softmaxRow (fun f : Fin b => L (ix2 i f)) j := by
  have hmax : ∀ j' : Fin b, broadcastTo ⟨2, ![a, b]⟩ (shapeCast ⟨2, ![a, 1]⟩ (multiReduction .maximumf [1] ⟨1, ![a]⟩ L 0xFF800000#32 h hφ hM) hc) hb (ix2 i j')
      = rowMax (fun f : Fin b => L (ix2 i f)) := fun j' =>
    (Cert.LibKeepdims.broadcastTo_a1_ac_apply _ hb i j').trans
      ((Cert.LibKeepdims.shapeCast_a_a1_apply _ hc i 0).trans (Cert.LibUnitAxes.multiReduction_maximumf_lastAxis_apply L _ h hφ hM i))
  generalize broadcastTo ⟨2, ![a, b]⟩ (shapeCast ⟨2, ![a, 1]⟩ (multiReduction .maximumf [1] ⟨1, ![a]⟩ L 0xFF800000#32 h hφ hM) hc) hb = B at hmax ⊢
  have hsum := Cert.LibKeepdims.rowSum_keepdims_broadcast_apply (exp (subf L B)) 0x00000000#32 h hφ hA hc hb i j
  unfold softmaxRow
  show Ideal.div (Ideal.exp (L (ix2 i j) - B (ix2 i j))) _ = _
  rw [hsum, hmax j]
  refine congrArg (Ideal.div _) (Finset.sum_congr rfl fun f _ => ?_)
  show Ideal.exp (L (ix2 i f) - B (ix2 i f)) = _
  rw [hmax f]

end Cert.Attn

namespace Cert.KernelIdeal.Row

open Cert.KernelIdeal Cert.KernelIdeal.Gen Idealize.ShloMosaic Idealize.ShloMosaic.ValueIdx Cert.Attn

/-! ### The product `[1024, 64] · [64, 2048]` read at an entry -/

theorem qk_lhs0 (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem qk_lhs1 (i : S1024x2048.Idx) (q : dot_S1024x64_S64x2048_S1024x2048_1_0_0_1_n_n.contr.Idx) : (dot_S1024x64_S64x2048_S1024x2048_1_0_0_1_n_n.lhsIdx i q 1).val = (q ⟨0, by decide⟩).val :=
  dot_S1024x64_S64x2048_S1024x2048_1_0_0_1_n_n.lhsIdx_val_of_single rfl i q
theorem qk_rhs0 (i : S1024x2048.Idx) (q : dot_S1024x64_S64x2048_S1024x2048_1_0_0_1_n_n.contr.Idx) : (dot_S1024x64_S64x2048_S1024x2048_1_0_0_1_n_n.rhsIdx i q 0).val = (q ⟨0, by decide⟩).val :=
  dot_S1024x64_S64x2048_S1024x2048_1_0_0_1_n_n.rhsIdx_val_of_single rfl i q
theorem qk_rhs1 (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- Into a zero accumulator the product reads, at `(i, j)`, the sum over the contracted coordinate `f` of the left
    operand at `(i, f)` times the right operand at `(f, j)`. -/
theorem qk_apply (L : FVec Ideal S1024x64 .f32) (R : FVec Ideal S64x2048 .f32) (i : Fin 1024) (j : Fin 2048) :
    matmul dot_S1024x64_S64x2048_S1024x2048_1_0_0_1_n_n (some .fp32) L R (constant S1024x2048 .f32 0x00000000#32) (ix2 i j) = ∑ f : Fin 64, L (ix2 i f) * R (ix2 f j) := by
  refine (Ideal.matmul_constant_zero_apply dot_S1024x64_S64x2048_S1024x2048_1_0_0_1_n_n (some .fp32) L R (ix2 i j)).trans ?_
  rw [← Equiv.sum_comp (contrEquiv1 dot_S1024x64_S64x2048_S1024x2048_1_0_0_1_n_n 64 rfl rfl).symm]
  refine Finset.sum_congr rfl fun f _ => ?_
  have hk := contrEquiv1_symm_val dot_S1024x64_S64x2048_S1024x2048_1_0_0_1_n_n 64 rfl rfl f
  have el : dot_S1024x64_S64x2048_S1024x2048_1_0_0_1_n_n.lhsIdx (ix2 i j) ((contrEquiv1 dot_S1024x64_S64x2048_S1024x2048_1_0_0_1_n_n 64 rfl rfl).symm f) = ix2 i f := funext fun a => Fin.ext (by
    match a with
    | ⟨0, _⟩ => exact qk_lhs0 _ _
    | ⟨1, _⟩ => exact (qk_lhs1 _ _).trans hk)
  have er : dot_S1024x64_S64x2048_S1024x2048_1_0_0_1_n_n.rhsIdx (ix2 i j) ((contrEquiv1 dot_S1024x64_S64x2048_S1024x2048_1_0_0_1_n_n 64 rfl rfl).symm f) = ix2 f j := funext fun a => Fin.ext (by
    match a with
    | ⟨0, _⟩ => exact (qk_rhs0 _ _).trans hk
    | ⟨1, _⟩ => exact qk_rhs1 _ _)
  rw [el, er]

/-! ### The product `[1024, 2048] · [2048, 64]` read at an entry -/

theorem av_lhs0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem av_lhs1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem av_rhs0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem av_rhs1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Into a zero accumulator the product reads, at `(i, j)`, the sum over the contracted coordinate `f` of the left
    operand at `(i, f)` times the right operand at `(f, j)`. -/
theorem av_apply (L : FVec Ideal S1024x2048 .f32) (R : FVec Ideal S2048x64 .f32) (i : Fin 1024) (j : Fin 64) :
    matmul dot_S1024x2048_S2048x64_S1024x64_1_0_0_1_n_n (some .fp32) L R (constant S1024x64 .f32 0x00000000#32) (ix2 i j) = ∑ f : Fin 2048, L (ix2 i f) * R (ix2 f j) := by
  refine (Ideal.matmul_constant_zero_apply dot_S1024x2048_S2048x64_S1024x64_1_0_0_1_n_n (some .fp32) L R (ix2 i j)).trans ?_
  rw [← Equiv.sum_comp (contrEquiv1 dot_S1024x2048_S2048x64_S1024x64_1_0_0_1_n_n 2048 rfl rfl).symm]
  refine Finset.sum_congr rfl fun f _ => ?_
  have hk := contrEquiv1_symm_val dot_S1024x2048_S2048x64_S1024x64_1_0_0_1_n_n 2048 rfl rfl f
  have el : dot_S1024x2048_S2048x64_S1024x64_1_0_0_1_n_n.lhsIdx (ix2 i j) ((contrEquiv1 dot_S1024x2048_S2048x64_S1024x64_1_0_0_1_n_n 2048 rfl rfl).symm f) = ix2 i f := funext fun a => Fin.ext (by
    match a with
    | ⟨0, _⟩ => exact av_lhs0 _ _
    | ⟨1, _⟩ => exact (av_lhs1 _ _).trans hk)
  have er : dot_S1024x2048_S2048x64_S1024x64_1_0_0_1_n_n.rhsIdx (ix2 i j) ((contrEquiv1 dot_S1024x2048_S2048x64_S1024x64_1_0_0_1_n_n 2048 rfl rfl).symm f) = ix2 f j := funext fun a => Fin.ext (by
    match a with
    | ⟨0, _⟩ => exact (av_rhs0 _ _).trans hk
    | ⟨1, _⟩ => exact av_rhs1 _ _)
  rw [el, er]

/-! ### The logits of a block -/

/-- The block's logits as the body computes them: the scaled queries times the keys transposed, plus the weighted mask. -/
def logits (x0 : FVec Ideal S1x1x1024x64 .f32) (x1 : FVec Ideal S1x1x2048x64 .f32) (x3 : FVec Ideal S1x1x1024x2048 .f32) : FVec Ideal S1024x2048 .f32 :=
  addf (matmul dot_S1024x64_S64x2048_S1024x2048_1_0_0_1_n_n (some .fp32)
      (mulf (shapeCast S1024x64 x0 shapeCasts_S1x1x1024x64_S1024x64) (broadcast S1024x64 (Scalar.ofBits .f32 0x3E000000#32)))
      (transpose S64x2048 [1, 0] (shapeCast S2048x64 x1 shapeCasts_S1x1x2048x64_S2048x64) transposes_S2048x64_p1_0_S64x2048)
      (constant S1024x2048 .f32 0x00000000#32))
    (mulf (shapeCast S1024x2048 x3 shapeCasts_S1x1x1024x2048_S1024x2048) (broadcast S1024x2048 (Scalar.ofBits .f32 0xCE6E6B28#32)))

/-- Entry `(r, k)` of the logits is the logit of key `k` in query row `r`: the factor 1/8 on the queries moves out of
    the sum over the depth. -/
theorem logits_apply (x0 : FVec Ideal S1x1x1024x64 .f32) (x1 : FVec Ideal S1x1x2048x64 .f32) (x3 : FVec Ideal S1x1x1024x2048 .f32)
    (r : Fin 1024) (k : Fin 2048) :
    logits x0 x1 x3 (ix2 r k)
      = logitRow (fun d : Fin 64 => x0 (ix4 (0 : Fin 1) (0 : Fin 1) r d)) (fun (k' : Fin 2048) (d : Fin 64) => x1 (ix4 (0 : Fin 1) (0 : Fin 1) k' d))
          (fun k' : Fin 2048 => x3 (ix4 (0 : Fin 1) (0 : Fin 1) r k')) k := by
  have hqk : matmul dot_S1024x64_S64x2048_S1024x2048_1_0_0_1_n_n (some .fp32)
      (mulf (shapeCast S1024x64 x0 shapeCasts_S1x1x1024x64_S1024x64) (broadcast S1024x64 (Scalar.ofBits .f32 0x3E000000#32)))
      (transpose S64x2048 [1, 0] (shapeCast S2048x64 x1 shapeCasts_S1x1x2048x64_S2048x64) transposes_S2048x64_p1_0_S64x2048)
      (constant S1024x2048 .f32 0x00000000#32) (ix2 r k)
      = (∑ d : Fin 64, x0 (ix4 (0 : Fin 1) (0 : Fin 1) r d) * x1 (ix4 (0 : Fin 1) (0 : Fin 1) k d)) * eighth := by
    refine (qk_apply _ _ r k).trans ?_
    rw [← sum_mul_eighth]
    refine Finset.sum_congr rfl fun d _ => ?_
    have h0 := Cert.LibUnitAxes.shapeCast_11ab_ab_apply x0 shapeCasts_S1x1x1024x64_S1024x64 r d
    have h1 : transpose S64x2048 [1, 0] (shapeCast S2048x64 x1 shapeCasts_S1x1x2048x64_S2048x64) transposes_S2048x64_p1_0_S64x2048 (ix2 d k)
        = x1 (ix4 (0 : Fin 1) (0 : Fin 1) k d) :=
      (transpose_ix2_apply _ transposes_S2048x64_p1_0_S64x2048 d k).trans
        (Cert.LibUnitAxes.shapeCast_11ab_ab_apply x1 shapeCasts_S1x1x2048x64_S2048x64 k d)
    rw [h1]
    show shapeCast S1024x64 x0 shapeCasts_S1x1x1024x64_S1024x64 (ix2 r d) * Ideal.ofBits .f32 0x3E000000#32 * _ = _
    rw [h0, ofBits_eighth]
  have hmask : mulf (shapeCast S1024x2048 x3 shapeCasts_S1x1x1024x2048_S1024x2048) (broadcast S1024x2048 (Scalar.ofBits .f32 0xCE6E6B28#32)) (ix2 r k)
      = x3 (ix4 (0 : Fin 1) (0 : Fin 1) r k) * maskWeight := by
    show shapeCast S1024x2048 x3 shapeCasts_S1x1x1024x2048_S1024x2048 (ix2 r k) * Ideal.ofBits .f32 0xCE6E6B28#32 = _
    rw [Cert.LibUnitAxes.shapeCast_11ab_ab_apply x3 shapeCasts_S1x1x1024x2048_S1024x2048 r k]
    rfl
  unfold logits logitRow
  exact congrArg₂ (· + ·) hqk hmask

/-! ### The payloads at an entry -/

/-- The attention weights of the block: entry `(r, k)` is the softmax, at key `k`, of query row `r`'s logits. -/
theorem pay2_apply (x0 : FVec Ideal S1x1x1024x64 .f32) (x1 : FVec Ideal S1x1x2048x64 .f32) (x3 : FVec Ideal S1x1x1024x2048 .f32)
    (r : Fin 1024) (k : Fin 2048) :
    k0_pay2 (F := Ideal) x0 x1 x3 (ix2 r k)
      = softmaxRow (logitRow (fun d : Fin 64 => x0 (ix4 (0 : Fin 1) (0 : Fin 1) r d)) (fun (k' : Fin 2048) (d : Fin 64) => x1 (ix4 (0 : Fin 1) (0 : Fin 1) k' d))
          (fun k' : Fin 2048 => x3 (ix4 (0 : Fin 1) (0 : Fin 1) r k'))) k := by
  unfold k0_pay2
  refine (softmax_rows_apply (logits x0 x1 x3) reduces_S1024x2048_S1024 (.inl rfl) rfl rfl shapeCasts_S1024_S1024x1 broadcasts_S1024x1_S1024x2048 r k).trans ?_
  exact congrArg (fun l => softmaxRow l k) (funext fun k' => logits_apply x0 x1 x3 r k')

/-- The stored block of attention weights is the same matrix with its two unit axes back. -/
theorem pay3_apply (x0 : FVec Ideal S1x1x1024x64 .f32) (x1 : FVec Ideal S1x1x2048x64 .f32) (x3 : FVec Ideal S1x1x1024x2048 .f32)
    (u v : Fin 1) (r : Fin 1024) (k : Fin 2048) :
    k0_pay3 (F := Ideal) x0 x1 x3 (ix4 u v r k) = k0_pay2 (F := Ideal) x0 x1 x3 (ix2 r k) := by
  unfold k0_pay3
  exact Cert.LibUnitAxes.shapeCast_ab_11ab_apply (k0_pay2 (F := Ideal) x0 x1 x3) shapeCasts_S1024x2048_S1x1x1024x2048 u v r k

/-- The block's output: entry `(r, d)` averages the values at depth `d` with row `r`'s attention weights. -/
theorem pay4_apply (x0 : FVec Ideal S1x1x1024x64 .f32) (x1 : FVec Ideal S1x1x2048x64 .f32) (x3 : FVec Ideal S1x1x1024x2048 .f32)
    (x2 : FVec Ideal S1x1x2048x64 .f32) (r : Fin 1024) (d : Fin 64) :
    k0_pay4 (F := Ideal) x0 x1 x3 x2 (ix2 r d) = ∑ k : Fin 2048, k0_pay2 (F := Ideal) x0 x1 x3 (ix2 r k) * x2 (ix4 (0 : Fin 1) (0 : Fin 1) k d) := by
  unfold k0_pay4
  refine (av_apply _ _ r d).trans ?_
  refine Finset.sum_congr rfl fun k _ => ?_
  rw [Cert.LibUnitAxes.shapeCast_11ab_ab_apply x2 shapeCasts_S1x1x2048x64_S2048x64 k d]

/-- The stored output block is that matrix with its two unit axes back. -/
theorem pay1_apply (y : FVec Ideal S1024x64 .f32) (u v : Fin 1) (r : Fin 1024) (d : Fin 64) :
    k0_pay1 (F := Ideal) y (ix4 u v r d) = y (ix2 r d) := by
  unfold k0_pay1
  exact Cert.LibUnitAxes.shapeCast_ab_11ab_apply y shapeCasts_S1024x64_S1x1x1024x64 u v r d

end Cert.KernelIdeal.Row

end
-- ==== Proof.KernelBlocks.lean ====
/-
  From blocks to arrays: what the two result arrays of the kernel's region hold after the run.

  The grid has a point for each batch entry b (4), each block qb of 1024 queries (2) and each head h (8).  At the point
  (b, qb, h) the region stages the query block [b, h, qb·1024 .. qb·1024+1023, :], all keys [b, h, :, :] and values
  [b, h, :, :] of the head, and the mask block [b, 0, qb·1024 .. , :], and writes back the output block
  [b, h, qb·1024 .. , :] and the block of attention weights [b, h, qb·1024 .. , :].  So row r of the staged queries is
  row qb·1024 + r of the head's queries, key k' is key k' of the head, and what the point writes back is the block of
  the whole-array functions of Proof/RowSoftmax.lean at that place.  The blocks of the 64 points tile each result
  array, so each array ends equal to its function of the arrays the region found.
-/
import proofs.«173999_j80659485819035_2_alg».proof.Proof.Gen.KernelIdeal.Frame
import proofs.«173999_j80659485819035_2_alg».proof.Proof.KernelRow
import Idealize.ShloMosaic.Lib.Pipeline.Value

set_option maxRecDepth 16384

noncomputable section

open scoped BigOperators

namespace Cert.KernelIdeal.Blocks

open Cert.KernelIdeal Cert.KernelIdeal.Gen Cert.KernelIdeal.Row Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The printed index maps, decided once over the 64 grid points, relative to the block of attention weights the
    point writes: the queries' block and the output's block sit at the same place, the keys' and values' blocks at the
    same batch entry and head, the mask's at the same batch entry and query block. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (0 : Fin 4) ≤ 3 ∧ win0_5.index t (1 : Fin 4) ≤ 7 ∧ win0_5.index t (2 : Fin 4) ≤ 1 ∧ win0_5.index t (3 : Fin 4) = 0 :=
  (by decide +kernel : ∀ t : Fin grid0.N, _)

/-- Every (batch entry, head, query block) is some point's. -/
theorem idx_onto : ∀ (q0 : Fin 4) (q1 : Fin 8) (q2 : Fin 2), ∃ t : Fin cfg0.N, win0_5.index t = ![q0.val, q1.val, q2.val, 0] :=
  (by decide +kernel : ∀ (q0 : Fin 4) (q1 : Fin 8) (q2 : Fin 2), ∃ t : Fin grid0.N, win0_5.index t = ![q0.val, q1.val, q2.val, 0])

/-! ## The staged blocks read as entries of the arrays -/

section Reads

/-- Row r of the staged queries is row qb·1024 + r of the head's queries. -/
theorem read_q (c : Dev nD) (t : Fin cfg0.N) (B : Fin 4) (H : Fin 8) (hB : B.val = win0_5.index t (0 : Fin 4)) (hH : H.val = win0_5.index t (1 : Fin 4)) (r : Fin 1024) (d : Fin 64) (I : Fin 2048) (hI : I.val = win0_5.index t (2 : Fin 4) * 1024 + r.val) :
    iblk m c 0 t (ix4 (0 : Fin 1) (0 : Fin 1) r d) = V m c main_v1 (ix4 B H I d) := by
  obtain ⟨e00, e01, e02, e03, -⟩ := idx_facts t
  show V m c main_v1 (((cfg0.win 0).blk t).view.emb (ix4 (0 : Fin 1) (0 : Fin 1) r d)) = _
  refine congrArg (V m c main_v1) (funext fun a => Fin.ext ?_)
  match a with
  | ⟨0, _⟩ => show win0_0.index t (0 : Fin 4) * 1 + 1 * 0 = B.val; omega
  | ⟨1, _⟩ => show win0_0.index t (1 : Fin 4) * 1 + 1 * 0 = H.val; omega
  | ⟨2, _⟩ => show win0_0.index t (2 : Fin 4) * 1024 + 1 * r.val = I.val; omega
  | ⟨3, _⟩ => show win0_0.index t (3 : Fin 4) * 64 + 1 * d.val = d.val; omega

/-- Key k' of the staged keys is key k' of the head. -/
theorem read_k (c : Dev nD) (t : Fin cfg0.N) (B : Fin 4) (H : Fin 8) (hB : B.val = win0_5.index t (0 : Fin 4)) (hH : H.val = win0_5.index t (1 : Fin 4)) (k' : Fin 2048) (d : Fin 64) :
    iblk m c 1 t (ix4 (0 : Fin 1) (0 : Fin 1) k' d) = V m c main_v3 (ix4 B H k' d) := by
  obtain ⟨-, -, -, -, e10, e11, e12, e13, -⟩ := idx_facts t
  show V m c main_v3 (((cfg0.win 1).blk t).view.emb (ix4 (0 : Fin 1) (0 : Fin 1) k' d)) = _
  refine congrArg (V m c main_v3) (funext fun a => Fin.ext ?_)
  match a with
  | ⟨0, _⟩ => show win0_1.index t (0 : Fin 4) * 1 + 1 * 0 = B.val; omega
  | ⟨1, _⟩ => show win0_1.index t (1 : Fin 4) * 1 + 1 * 0 = H.val; omega
  | ⟨2, _⟩ => show win0_1.index t (2 : Fin 4) * 2048 + 1 * k'.val = k'.val; omega
  | ⟨3, _⟩ => show win0_1.index t (3 : Fin 4) * 64 + 1 * d.val = d.val; omega

/-- Value k' of the staged values is value k' of the head. -/
theorem read_v (c : Dev nD) (t : Fin cfg0.N) (B : Fin 4) (H : Fin 8) (hB : B.val = win0_5.index t (0 : Fin 4)) (hH : H.val = win0_5.index t (1 : Fin 4)) (k' : Fin 2048) (d : Fin 64) :
    iblk m c 2 t (ix4 (0 : Fin 1) (0 : Fin 1) k' d) = V m c main_v5 (ix4 B H k' d) := by
  obtain ⟨-, -, -, -, -, -, -, -, e20, e21, e22, e23, -⟩ := idx_facts t
  show V m c main_v5 (((cfg0.win 2).blk t).view.emb (ix4 (0 : Fin 1) (0 : Fin 1) k' d)) = _
  refine congrArg (V m c main_v5) (funext fun a => Fin.ext ?_)
  match a with
  | ⟨0, _⟩ => show win0_2.index t (0 : Fin 4) * 1 + 1 * 0 = B.val; omega
  | ⟨1, _⟩ => show win0_2.index t (1 : Fin 4) * 1 + 1 * 0 = H.val; omega
  | ⟨2, _⟩ => show win0_2.index t (2 : Fin 4) * 2048 + 1 * k'.val = k'.val; omega
  | ⟨3, _⟩ => show win0_2.index t (3 : Fin 4) * 64 + 1 * d.val = d.val; omega

/-- Row r of the staged mask is row qb·1024 + r of the batch entry's mask. -/
theorem read_m (c : Dev nD) (t : Fin cfg0.N) (B : Fin 4) (H : Fin 8) (hB : B.val = win0_5.index t (0 : Fin 4)) (hH : H.val = win0_5.index t (1 : Fin 4)) (r : Fin 1024) (k' : Fin 2048) (I : Fin 2048) (hI : I.val = win0_5.index t (2 : Fin 4) * 1024 + r.val) :
    iblk m c 3 t (ix4 (0 : Fin 1) (0 : Fin 1) r k') = V m c main_arg3 (ix4 B (0 : Fin 1) I k') := by
  obtain ⟨-, -, -, -, -, -, -, -, -, -, -, -, e30, e31, e32, e33, -⟩ := idx_facts t
  show V m c main_arg3 (((cfg0.win 3).blk t).view.emb (ix4 (0 : Fin 1) (0 : Fin 1) r k')) = _
  refine congrArg (V m c main_arg3) (funext fun a => Fin.ext ?_)
  match a with
  | ⟨0, _⟩ => show win0_3.index t (0 : Fin 4) * 1 + 1 * 0 = B.val; omega
  | ⟨1, _⟩ => show win0_3.index t (1 : Fin 4) * 1 + 1 * 0 = 0; omega
  | ⟨2, _⟩ => show win0_3.index t (2 : Fin 4) * 1024 + 1 * r.val = I.val; omega
  | ⟨3, _⟩ => show win0_3.index t (3 : Fin 4) * 2048 + 1 * k'.val = k'.val; omega

/-- The block's attention weights are the weights of the head's rows qb·1024 + r. -/
theorem weights_eq (c : Dev nD) (t : Fin cfg0.N) (B : Fin 4) (H : Fin 8) (hB : B.val = win0_5.index t (0 : Fin 4)) (hH : H.val = win0_5.index t (1 : Fin 4)) (r : Fin 1024) (k : Fin 2048) (I : Fin 2048) (hI : I.val = win0_5.index t (2 : Fin 4) * 1024 + r.val) :
    k0_pay2 (F := Ideal) (iblk m c 0 t) (iblk m c 1 t) (iblk m c 3 t) (ix2 r k)
      = attnAt (V m c main_v1) (V m c main_v3) (V m c main_arg3) B H I k := by
  refine (pay2_apply (iblk m c 0 t) (iblk m c 1 t) (iblk m c 3 t) r k).trans ?_
  have hq : (fun d : Fin 64 => iblk m c 0 t (ix4 (0 : Fin 1) (0 : Fin 1) r d)) = fun d : Fin 64 => V m c main_v1 (ix4 B H I d) :=
    funext fun d => read_q m c t B H hB hH r d I hI
  have hk : (fun (k' : Fin 2048) (d : Fin 64) => iblk m c 1 t (ix4 (0 : Fin 1) (0 : Fin 1) k' d)) = fun (k' : Fin 2048) (d : Fin 64) => V m c main_v3 (ix4 B H k' d) :=
    funext fun k' => funext fun d => read_k m c t B H hB hH k' d
  have hm : (fun k' : Fin 2048 => iblk m c 3 t (ix4 (0 : Fin 1) (0 : Fin 1) r k')) = fun k' : Fin 2048 => V m c main_arg3 (ix4 B (0 : Fin 1) I k') :=
    funext fun k' => read_m m c t B H hB hH r k' I hI
  unfold attnAt
  rw [hq, hk, hm]

end Reads

/-! ## What a point writes back -/

/-- A whole-array spec at an index whose coordinates are known. -/
theorem attnSpec_at (qh kh : SHeads.Idx → EReal) (mk : SMask.Idx → EReal) (e : SWeights.Idx) (b : Fin 4) (h : Fin 8) (i k : Fin 2048)
    (h0 : (e 0).val = b.val) (h1 : (e 1).val = h.val) (h2 : (e 2).val = i.val) (h3 : (e 3).val = k.val) :
    attnSpec qh kh mk e = attnAt qh kh mk b h i k := by
  have e0 : e 0 = b := Fin.ext h0
  have e1 : e 1 = h := Fin.ext h1
  have e2 : e 2 = i := Fin.ext h2
  have e3 : e 3 = k := Fin.ext h3
  unfold attnSpec
  rw [e0, e1, e2, e3]

theorem outSpec_at (qh kh vh : SHeads.Idx → EReal) (mk : SMask.Idx → EReal) (e : SHeads.Idx) (b : Fin 4) (h : Fin 8) (i : Fin 2048) (d : Fin 64)
    (h0 : (e 0).val = b.val) (h1 : (e 1).val = h.val) (h2 : (e 2).val = i.val) (h3 : (e 3).val = d.val) :
    outSpec qh kh vh mk e = outAt qh kh vh mk b h i d := by
  have e0 : e 0 = b := Fin.ext h0
  have e1 : e 1 = h := Fin.ext h1
  have e2 : e 2 = i := Fin.ext h2
  have e3 : e 3 = d := Fin.ext h3
  unfold outSpec
  rw [e0, e1, e2, e3]

/-- The block of attention weights point t writes back is block t of the weights of the arrays the region found. -/
theorem flushed5_eq (c : Dev nD) (t : Fin cfg0.N) :
    (dats m 0 c).flushed 5 t = ((cfg0.win 5).blk t).view.read (Elt Ideal) (attnSpec (V m c main_v1) (V m c main_v3) (V m c main_arg3)) := by
  show (cfg0.win 5).cut (grid0.coords t) ((dats m 0 c).after 5 t) = _
  rw [after0_5]
  unfold out0_5
  rw [View.canon_unit_zero hz]
  simp only [View.ld_unit_zero (S := S1x1x1024x64) hz, View.ld_unit_zero (S := S1x1x2048x64) hz, View.ld_unit_zero (S := S1x1x1024x2048) hz]
  obtain ⟨-, -, -, -, -, -, -, -, -, -, -, -, -, -, -, -, -, -, -, -, b0, b1, b2, b3⟩ := idx_facts t
  funext j
  obtain ⟨u, v, r, k, rfl⟩ : ∃ (u v : Fin 1) (r : Fin 1024) (k : Fin 2048), j = ix4 u v r k := ⟨j 0, j 1, j 2, j 3, eq_ix4 j⟩
  show k0_pay3 (F := Ideal) (iblk m c 0 t) (iblk m c 1 t) (iblk m c 3 t) (ix4 u v r k)
    = attnSpec (V m c main_v1) (V m c main_v3) (V m c main_arg3) (((cfg0.win 5).blk t).view.emb (ix4 u v r k))
  refine (pay3_apply (iblk m c 0 t) (iblk m c 1 t) (iblk m c 3 t) u v r k).trans ?_
  refine (weights_eq m c t ⟨win0_5.index t (0 : Fin 4), by omega⟩ ⟨win0_5.index t (1 : Fin 4), by omega⟩ rfl rfl r k
    ⟨win0_5.index t (2 : Fin 4) * 1024 + r.val, by have := r.isLt; omega⟩ rfl).trans ?_
  refine (attnSpec_at _ _ _ _ _ _ _ k ?_ ?_ ?_ ?_).symm
  · show win0_5.index t (0 : Fin 4) * 1 + 1 * u.val = win0_5.index t (0 : Fin 4); omega
  · show win0_5.index t (1 : Fin 4) * 1 + 1 * v.val = win0_5.index t (1 : Fin 4); omega
  · show win0_5.index t (2 : Fin 4) * 1024 + 1 * r.val = win0_5.index t (2 : Fin 4) * 1024 + r.val; omega
  · show win0_5.index t (3 : Fin 4) * 2048 + 1 * k.val = k.val; omega

/-- The output block point t writes back is block t of the output by heads of the arrays the region found. -/
theorem flushed4_eq (c : Dev nD) (t : Fin cfg0.N) :
    (dats m 0 c).flushed 4 t = ((cfg0.win 4).blk t).view.read (Elt Ideal) (outSpec (V m c main_v1) (V m c main_v3) (V m c main_v5) (V m c main_arg3)) := by
  show (cfg0.win 4).cut (grid0.coords t) ((dats m 0 c).after 4 t) = _
  rw [after0_4]
  unfold out0_4
  rw [View.canon_unit_zero hz]
  simp only [View.ld_unit_zero (S := S1x1x1024x64) hz, View.ld_unit_zero (S := S1x1x2048x64) hz, View.ld_unit_zero (S := S1x1x1024x2048) hz]
  obtain ⟨-, -, -, -, -, -, -, -, -, -, -, -, -, -, -, -, e40, e41, e42, e43, b0, b1, b2, b3⟩ := idx_facts t
  funext j
  obtain ⟨u, v, r, d, rfl⟩ : ∃ (u v : Fin 1) (r : Fin 1024) (d : Fin 64), j = ix4 u v r d := ⟨j 0, j 1, j 2, j 3, eq_ix4 j⟩
  show k0_pay1 (F := Ideal) (k0_pay4 (F := Ideal) (iblk m c 0 t) (iblk m c 1 t) (iblk m c 3 t) (iblk m c 2 t)) (ix4 u v r d)
    = outSpec (V m c main_v1) (V m c main_v3) (V m c main_v5) (V m c main_arg3) (((cfg0.win 4).blk t).view.emb (ix4 u v r d))
  refine (pay1_apply _ u v r d).trans ?_
  refine (pay4_apply (iblk m c 0 t) (iblk m c 1 t) (iblk m c 3 t) (iblk m c 2 t) r d).trans ?_
  refine Eq.trans ?_ (outSpec_at _ _ _ _ _ ⟨win0_5.index t (0 : Fin 4), by omega⟩ ⟨win0_5.index t (1 : Fin 4), by omega⟩
    ⟨win0_5.index t (2 : Fin 4) * 1024 + r.val, by have := r.isLt; omega⟩ d ?_ ?_ ?_ ?_).symm
  · unfold outAt
    refine Finset.sum_congr rfl fun k _ => ?_
    rw [weights_eq m c t ⟨win0_5.index t (0 : Fin 4), by omega⟩ ⟨win0_5.index t (1 : Fin 4), by omega⟩ rfl rfl r k
      ⟨win0_5.index t (2 : Fin 4) * 1024 + r.val, by have := r.isLt; omega⟩ rfl,
      read_v m c t ⟨win0_5.index t (0 : Fin 4), by omega⟩ ⟨win0_5.index t (1 : Fin 4), by omega⟩ rfl rfl k d]
  · show win0_4.index t (0 : Fin 4) * 1 + 1 * u.val = win0_5.index t (0 : Fin 4); omega
  · show win0_4.index t (1 : Fin 4) * 1 + 1 * v.val = win0_5.index t (1 : Fin 4); omega
  · show win0_4.index t (2 : Fin 4) * 1024 + 1 * r.val = win0_5.index t (2 : Fin 4) * 1024 + r.val; omega
  · show win0_4.index t (3 : Fin 4) * 64 + 1 * d.val = d.val; omega

/-! ## The blocks tile the arrays -/

theorem mem_blk5 (t : Fin cfg0.N) (i : S4x8x2048x2048.Idx) :
    i ∈ ((cfg0.win 5).blk t).view.set ↔ ∀ a : Fin 4, win0_5.index t a * S1x1x1024x2048.size a ≤ (i a).val ∧ (i a).val < win0_5.index t a * S1x1x1024x2048.size a + S1x1x1024x2048.size a := by
  show i ∈ ((View.whole main_v6_1).slice (win0_5.rect t)).set ↔ _
  rw [View.set_slice_whole, Rect.mem_set_unit]
  exact Iff.rfl

theorem mem_blk4 (t : Fin cfg0.N) (i : S4x8x2048x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v6_0).slice (win0_4.rect t)).set ↔ _
  rw [View.set_slice_whole, Rect.mem_set_unit]
  exact Iff.rfl

/-- Every entry of the attention weights is in the block of the point of its batch entry, head and query block. -/
theorem cover5 (i : S4x8x2048x2048.Idx) : ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- Every entry of the output by heads is in the block of the point of its batch entry, head and query block. -/
theorem cover4 (i : S4x8x2048x64.Idx) : ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  obtain ⟨-, -, -, -, -, -, -, -, -, -, -, -, -, -, -, -, e40, e41, e42, e43, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The arrays after the region -/

/-- The attention weights after the run. -/
theorem final5 (c : Dev nD) : (dats m 0 c).arrAt 5 cfg0.N = attnSpec (V m c main_v1) (V m c main_v3) (V m c main_arg3) :=
  (dats m 0 c).arrAt_eq_of_cover 5 (attnSpec (V m c main_v1) (V m c main_v3) (V m c main_arg3)) (fun t _ => flushed5_eq m c t) cover5

/-- The output by heads after the run. -/
theorem final4 (c : Dev nD) : (dats m 0 c).arrAt 4 cfg0.N = outSpec (V m c main_v1) (V m c main_v3) (V m c main_v5) (V m c main_arg3) :=
  (dats m 0 c).arrAt_eq_of_cover 4 (outSpec (V m c main_v1) (V m c main_v3) (V m c main_v5) (V m c main_arg3)) (fun t _ => flushed4_eq m c t) cover4

end Cert.KernelIdeal.Blocks

end
-- ==== Proof.KernelRun.lean ====
/-
  The kernel program's run, with both results named.

  Before the region the program lays the queries, keys and values out by heads ([4, 2048, 512] → [4, 2048, 8, 64] →
  [4, 8, 2048, 64]); after it, it lays the output by heads back ([4, 8, 2048, 64] → [4, 2048, 8, 64] → [4, 2048, 512]).
  Neither layout is opened here: both programs apply the same ones, so they are carried as the functions `byHeads` and
  `fromHeads`.  The attention weights are the region's second result as it stands.
-/
import proofs.«173999_j80659485819035_2_alg».proof.Proof.KernelBlocks
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Attn Idealize.ShloMosaic.StableHlo
open Idealize.ShloMosaic.Pipeline (Dat)

/-- An array [4, 2048, 512] laid out by heads: [4, 8, 2048, 64]. -/
def byHeads (x : (⟨S4x2048x512, .f32⟩ : BufTy).Contents (Elt Ideal)) : (⟨S4x8x2048x64, .f32⟩ : BufTy).Contents (Elt Ideal) :=
  transpose S4x8x2048x64 [0, 2, 1, 3] (shapeCast S4x2048x8x64 x shapeCasts_S4x2048x512_S4x2048x8x64) transposes_S4x2048x8x64_S4x8x2048x64_0_2_1_3

/-- An array by heads [4, 8, 2048, 64] laid back: [4, 2048, 512]. -/
def fromHeads (o : (⟨S4x8x2048x64, .f32⟩ : BufTy).Contents (Elt Ideal)) : (⟨S4x2048x512, .f32⟩ : BufTy).Contents (Elt Ideal) :=
  shapeCast S4x2048x512 (transpose S4x2048x8x64 [0, 2, 1, 3] o transposes_S4x8x2048x64_S4x2048x8x64_0_2_1_3) shapeCasts_S4x2048x8x64_S4x2048x512

variable (m : (ℓ : Loc nD τ sig) → Buf (Elt Ideal) ℓ) (ρ : Dev nD → PrngReg)

/-- The region finds the queries by heads … -/
theorem V_q (c : Dev nD) : V m c main_v1 = byHeads (m ((c : Thread nD τ).loc main_arg2)) := by
  show StableHlo.after hostOps0 (fun b => m (c, b)) (Proc.devRef .tc main_v1) = _
  after_results
  rfl

/-- … the keys by heads … -/
theorem V_k (c : Dev nD) : V m c main_v3 = byHeads (m ((c : Thread nD τ).loc main_arg1)) := by
  show StableHlo.after hostOps0 (fun b => m (c, b)) (Proc.devRef .tc main_v3) = _
  after_results
  rfl

/-- … and the values by heads. -/
theorem V_v (c : Dev nD) : V m c main_v5 = byHeads (m ((c : Thread nD τ).loc main_arg0)) := by
  show StableHlo.after hostOps0 (fun b => m (c, b)) (Proc.devRef .tc main_v5) = _
  after_results
  rfl

/-- The attention weights of the launched arrays. -/
abbrev weights (c : Dev nD) : SWeights.Idx → EReal :=
  attnSpec (byHeads (m ((c : Thread nD τ).loc main_arg2))) (byHeads (m ((c : Thread nD τ).loc main_arg1))) (m ((c : Thread nD τ).loc main_arg3))

/-- The output by heads of the launched arrays. -/
abbrev outputByHeads (c : Dev nD) : SHeads.Idx → EReal :=
  outSpec (byHeads (m ((c : Thread nD τ).loc main_arg2))) (byHeads (m ((c : Thread nD τ).loc main_arg1)))
    (byHeads (m ((c : Thread nD τ).loc main_arg0))) (m ((c : Thread nD τ).loc main_arg3))

theorem final5' (c : Dev nD) : (dats m 0 c).arrAt 5 cfg0.N = weights m c := by
  rw [final5, V_q, V_k, V_main_arg3]

theorem final4' (c : Dev nD) : (dats m 0 c).arrAt 4 cfg0.N = outputByHeads m c := by
  rw [final4, V_q, V_k, V_v, V_main_arg3]

/-- What the lines after the region leave in the first result: the output by heads laid back. -/
theorem tail_eq (c : Dev nD) :
    Pipeline.afterTail₀ cfgs (dats m) 0 (V0 m) [hostOps1] c main_v8 = fromHeads (outputByHeads m c) := by
  unfold Pipeline.afterTail₀
  show StableHlo.after hostOps1 _ (Proc.devRef .tc main_v8) = _
  after_results
  have e : Pipeline.withArrays spec0 c (V0 m c) (fun w => (dats m 0 c).arrAt w cfg0.N) (Proc.devRef .tc main_v6_0) = outputByHeads m c :=
    (Pipeline.withArrays_arr spec0 launch0.win.arr_inj c _ _ 4).trans (final4' m c)
  unfold fromHeads
  rw [← e]
  rfl

/-- Every weakly fair execution of the kernel program terminates with the first result the output by heads laid back,
    the second the attention weights, and the arguments unchanged. -/
theorem run : θ_run defs (onTc (τ := τ) (main (F := Ideal))) ⟨m, fun _ => 0, ρ⟩ fun r => ∀ c : Dev nD,
      r.2.mem ((c.tc : Thread nD τ).loc main_v8) = fromHeads (outputByHeads m c)
      ∧ r.2.mem ((c.tc : Thread nD τ).loc main_v6_1) = weights m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).1 5).trans (final5' m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Blocks

end
-- ==== Proof.RefRow.lean ====
/-
  What the reference computes, entry by entry on the extended reals, from the queries, keys and values by heads.

  Its logits are (q kᵀ) · s + mask · w with s = 1 / √64 computed by the program itself: on the extended reals √64 = 8
  exactly, so s = 1/8.  The row maximum is taken from −∞ and then once more against −∞, which changes nothing; the
  exponentials, the row sum (from 0) and the quotient are the softmax of the row; the second product averages the
  values with those weights.
-/
import proofs.«173999_j80659485819035_2_alg».proof.Proof.Gen.ReferenceIdeal.Read
import proofs.«173999_j80659485819035_2_alg».proof.Proof.RowSoftmax

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S4x2048x512, .f32⟩ : BufTy).Contents (Elt Ideal)) (x3 : (⟨S4x1x2048x2048, .f32⟩ : BufTy).Contents (Elt Ideal))

/-- The logit of key `k` for query `i` of head `h` of batch entry `b`. -/
theorem logits_apply (b : Fin 4) (h : Fin 8) (i k : Fin 2048) :
    val_main_v14 (F := Ideal) x1 x2 x3 (ix4 b h i k) = logitRow (fun d : Fin 64 => val_main_v1 (F := Ideal) x2 (ix4 b h i d)) (fun (k' : Fin 2048) (d : Fin 64) => val_main_v3 (F := Ideal) x1 (ix4 b h k' d)) (fun k' : Fin 2048 => x3 (ix4 b (0 : Fin 1) i k')) k := by
  rw [val_main_v14_apply, val_main_v10_apply, val_main_v8_apply, val_main_v9_apply, val_main_v7_apply, val_main_v6_apply,
    val_main_cst_apply, val_main_cst_0_apply, val_main_v13_apply, val_main_v12_apply, val_main_v11_apply, val_main_cst_1_apply]
  have el : ∀ d : Fin 64, lidx_main_v8 (ix4 b h i k) d = ix4 b h i d := fun d => funext fun a => Fin.ext (by match a with | ⟨0, _⟩ => rfl | ⟨1, _⟩ => rfl | ⟨2, _⟩ => rfl | ⟨3, _⟩ => rfl)
  have er : ∀ d : Fin 64, ridx_main_v8 (ix4 b h i k) d = ix4 b h k d := fun d => funext fun a => Fin.ext (by match a with | ⟨0, _⟩ => rfl | ⟨1, _⟩ => rfl | ⟨2, _⟩ => rfl | ⟨3, _⟩ => rfl)
  have em : idx_main_v13 (ix4 b h i k) = ix4 b (0 : Fin 1) i k := funext fun a => Fin.ext (by match a with | ⟨0, _⟩ => rfl | ⟨1, _⟩ => rfl | ⟨2, _⟩ => rfl | ⟨3, _⟩ => rfl)
  simp only [el, er, em, Ideal.addf_def, Ideal.mulf_def, Ideal.hostDivf_def, Ideal.hostUnary_sqrt_def, Ideal.ofBits_def,
    one_div_sqrt_sixtyfour]
  rfl

/-- The row maximum the reference subtracts is the maximum of the row's logits from −∞. -/
theorem rowmax_apply (b : Fin 4) (h : Fin 8) (i : Fin 2048) :
    val_main_v17 (F := Ideal) x1 x2 x3 (ix3 b h i) = rowMax (logitRow (fun d : Fin 64 => val_main_v1 (F := Ideal) x2 (ix4 b h i d)) (fun (k' : Fin 2048) (d : Fin 64) => val_main_v3 (F := Ideal) x1 (ix4 b h k' d)) (fun k' : Fin 2048 => x3 (ix4 b (0 : Fin 1) i k'))) := by
  have hR : S4x8x2048x2048.Reduces [3] S4x8x2048 := by decide
  have h15 : val_main_v15 (F := Ideal) x1 x2 x3 (ix3 b h i)
      = rowMax (fun k' : Fin 2048 => val_main_v14 (F := Ideal) x1 x2 x3 (ix4 b h i k')) := by
    unfold val_main_v15
    refine (Host.reduce_eq_fold_single (α := Ideal .f32) FloatOps.maximumf (val_main_v14 (F := Ideal) x1 x2 x3 : FVec Ideal S4x8x2048x2048 .f32)
      (val_main_cst_2 (F := Ideal) : FVec Ideal S_ .f32) reducesTo_S4x8x2048x2048_S4x8x2048_d3 hR h_S_ (ix3 b h i)).trans ?_
    unfold rowMax
    refine congrArg (fun g => (Finset.univ : Finset (Fin 2048)).fold max (Ideal.ofBits .f32 0xFF800000#32) g) (funext fun k' => ?_)
    exact congrArg (val_main_v14 (F := Ideal) x1 x2 x3) (funext fun a => Fin.ext (by match a with | ⟨0, _⟩ => rfl | ⟨1, _⟩ => rfl | ⟨2, _⟩ => rfl | ⟨3, _⟩ => rfl))
  rw [val_main_v17_apply, val_main_v16_apply, val_main_cst_3_apply, h15]
  show max (Ideal.ofBits .f32 0xFF800000#32) _ = _
  rw [max_negInf]
  exact congrArg rowMax (funext fun k' => logits_apply x1 x2 x3 b h i k')

/-- The exponential of a logit less the row's maximum. -/
theorem exp_apply (b : Fin 4) (h : Fin 8) (i k : Fin 2048) :
    val_main_v21 (F := Ideal) x1 x2 x3 (ix4 b h i k)
      = Ideal.exp (logitRow (fun d : Fin 64 => val_main_v1 (F := Ideal) x2 (ix4 b h i d)) (fun (k' : Fin 2048) (d : Fin 64) => val_main_v3 (F := Ideal) x1 (ix4 b h k' d)) (fun k' : Fin 2048 => x3 (ix4 b (0 : Fin 1) i k')) k - rowMax (logitRow (fun d : Fin 64 => val_main_v1 (F := Ideal) x2 (ix4 b h i d)) (fun (k' : Fin 2048) (d : Fin 64) => val_main_v3 (F := Ideal) x1 (ix4 b h k' d)) (fun k' : Fin 2048 => x3 (ix4 b (0 : Fin 1) i k')))) := by
  have e : idx_main_v18 (idx_main_v19 (ix4 b h i k)) = ix3 b h i := funext fun a => Fin.ext (by match a with | ⟨0, _⟩ => rfl | ⟨1, _⟩ => rfl | ⟨2, _⟩ => rfl)
  rw [val_main_v21_apply, val_main_v20_apply, val_main_v19_apply, val_main_v18_apply, e, rowmax_apply, logits_apply]
  rfl

/-- The reference's attention weight at `(b, h, i, k)` is the spec's. -/
theorem attn_apply (b : Fin 4) (h : Fin 8) (i k : Fin 2048) :
    val_main_v25 (F := Ideal) x1 x2 x3 (ix4 b h i k)
      = attnAt (val_main_v1 (F := Ideal) x2) (val_main_v3 (F := Ideal) x1) x3 b h i k := by
  have e : idx_main_v23 (idx_main_v24 (ix4 b h i k)) = ix3 b h i := funext fun a => Fin.ext (by match a with | ⟨0, _⟩ => rfl | ⟨1, _⟩ => rfl | ⟨2, _⟩ => rfl)
  have e2 : ∀ k' : Fin 2048, idx_main_v22 (ix3 b h i) k' = ix4 b h i k' := fun k' => funext fun a => Fin.ext (by match a with | ⟨0, _⟩ => rfl | ⟨1, _⟩ => rfl | ⟨2, _⟩ => rfl | ⟨3, _⟩ => rfl)
  rw [val_main_v25_apply, val_main_v24_apply, val_main_v23_apply, e, val_main_v22_apply, val_main_cst_4_apply]
  simp only [e2, exp_apply, Ideal.hostDivf_def, Ideal.ofBits_def, ofBits_zero, zero_add]
  rfl

/-- The reference's output by heads at `(b, h, i, d)` is the spec's. -/
theorem out_apply (b : Fin 4) (h : Fin 8) (i : Fin 2048) (d : Fin 64) :
    val_main_v26 (F := Ideal) x0 x1 x2 x3 (ix4 b h i d)
      = outAt (val_main_v1 (F := Ideal) x2) (val_main_v3 (F := Ideal) x1) (val_main_v5 (F := Ideal) x0) x3 b h i d := by
  have el : ∀ k : Fin 2048, lidx_main_v26 (ix4 b h i d) k = ix4 b h i k := fun k => funext fun a => Fin.ext (by match a with | ⟨0, _⟩ => rfl | ⟨1, _⟩ => rfl | ⟨2, _⟩ => rfl | ⟨3, _⟩ => rfl)
  have er : ∀ k : Fin 2048, ridx_main_v26 (ix4 b h i d) k = ix4 b h k d := fun k => funext fun a => Fin.ext (by match a with | ⟨0, _⟩ => rfl | ⟨1, _⟩ => rfl | ⟨2, _⟩ => rfl | ⟨3, _⟩ => rfl)
  rw [val_main_v26_apply]
  unfold outAt
  refine Finset.sum_congr rfl fun k _ => ?_
  rw [el, er, attn_apply]

/-- The attention weights the reference returns are the spec's, as whole arrays. -/
theorem attn_eq : val_main_v25 (F := Ideal) x1 x2 x3 = attnSpec (val_main_v1 (F := Ideal) x2) (val_main_v3 (F := Ideal) x1) x3 :=
  funext fun j => (congrArg (val_main_v25 (F := Ideal) x1 x2 x3) (eq_ix4 j)).trans (attn_apply x1 x2 x3 (j 0) (j 1) (j 2) (j 3))

/-- The output by heads, before it is laid out back, is the spec's, as whole arrays. -/
theorem out_eq : val_main_v26 (F := Ideal) x0 x1 x2 x3
    = outSpec (val_main_v1 (F := Ideal) x2) (val_main_v3 (F := Ideal) x1) (val_main_v5 (F := Ideal) x0) x3 :=
  funext fun j => (congrArg (val_main_v26 (F := Ideal) x0 x1 x2 x3) (eq_ix4 j)).trans (out_apply x0 x1 x2 x3 (j 0) (j 1) (j 2) (j 3))

end Cert.ReferenceIdeal.RefValue

end
-- ==== Proof.lean ====
/-
  Multi-head attention over four batch entries, eight heads of depth 64 and 2048 positions, with an additive mask:
  the kernel program against its reference, on the extended reals.

  Both programs lay the queries, keys and values out by heads, compute for every head and query row the logits
  (q · k) / 8 + mask · w, take the softmax of the row against its maximum, return those attention weights, and return the
  values averaged with them, laid back.  They differ in where the scale sits — the kernel multiplies the queries by
  1/8 before the product, the reference multiplies the product by 1 / √64 — and in how the work is cut: the kernel
  takes 1024 queries of one head at a time.  On the extended reals √64 = 8 exactly and a nonnegative real factor moves
  out of any sum of extended reals, so the logits agree entry by entry with no finiteness used, and everything after
  them is the same function of them.  (Proof/RowSoftmax.lean states the two results entry by entry; Proof/KernelRow.lean
  and Proof/KernelBlocks.lean read the kernel's blocks and tile them; Proof/RefRow.lean reads the reference.)
-/
import proofs.«173999_j80659485819035_2_alg».proof.Defs
import proofs.«173999_j80659485819035_2_alg».proof.Proof.Gen.Kernel
import proofs.«173999_j80659485819035_2_alg».proof.Proof.Gen.Kernel.Skeleton
import proofs.«173999_j80659485819035_2_alg».proof.Proof.Gen.Kernel.Launch
import proofs.«173999_j80659485819035_2_alg».proof.Proof.Gen.Kernel.Points
import proofs.«173999_j80659485819035_2_alg».proof.Proof.Gen.Kernel.Frame
import proofs.«173999_j80659485819035_2_alg».proof.Proof.Gen.KernelIdeal
import proofs.«173999_j80659485819035_2_alg».proof.Proof.Gen.KernelIdeal.Skeleton
import proofs.«173999_j80659485819035_2_alg».proof.Proof.Gen.KernelIdeal.Launch
import proofs.«173999_j80659485819035_2_alg».proof.Proof.Gen.KernelIdeal.Points
import proofs.«173999_j80659485819035_2_alg».proof.Proof.Gen.KernelIdeal.Frame
import proofs.«173999_j80659485819035_2_alg».proof.Proof.Gen.ReferenceIdeal
import proofs.«173999_j80659485819035_2_alg».proof.Proof.Gen.ReferenceIdeal.Run
import proofs.«173999_j80659485819035_2_alg».proof.Proof.Gen.ReferenceIdeal.Read
import proofs.«173999_j80659485819035_2_alg».proof.Proof.Gen.Pre_finite_inputs
import proofs.«173999_j80659485819035_2_alg».proof.Proof.KernelRun
import proofs.«173999_j80659485819035_2_alg».proof.Proof.RefRow
import Idealize.ShloMosaic.Adequacy
import Idealize.ShloMosaic.Init

noncomputable section

namespace Cert.Proof

open Idealize.ShloMosaic Idealize.ShloMosaic.TcCoe Idealize.SL.Sem

/-- The kernel program as printed runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel was rewritten when it was read on the extended reals. -/
theorem preserves : Cert.preserves_Kernel_KernelIdeal := trivial

/-- From arguments that agree, both programs end with the same output and the same attention weights: each result
    is one function of the arguments, and the two programs compute it. -/
theorem algebraic : Cert.algebraic_KernelIdeal_ReferenceIdeal := by
  intro m ρ m' ρ' _ hagree
  refine ⟨fun c => Cert.KernelIdeal.Blocks.fromHeads (Cert.KernelIdeal.Blocks.outputByHeads m c),
    fun c => Cert.KernelIdeal.Blocks.weights m c, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq]
    unfold Cert.ReferenceIdeal.Read.val_main_v28 Cert.ReferenceIdeal.Read.val_main_v27
    rw [Cert.ReferenceIdeal.RefValue.out_eq, (hagree c).1, (hagree c).2.1, (hagree c).2.2.1, (hagree c).2.2.2]
    rfl
  · rw [Cert.ReferenceIdeal.Read.val_main_v25_eq, Cert.ReferenceIdeal.RefValue.attn_eq, (hagree c).2.1, (hagree c).2.2.1,
      (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
